-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192x2048 .f32) (main_arg5 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S8192x2048 : Shape := ⟨2, ![8192, 2048]⟩
abbrev S8192 : Shape := ⟨1, ![8192]⟩
abbrev S4x2048x2048 : Shape := ⟨3, ![4, 2048, 2048]⟩
abbrev S4x2048 : Shape := ⟨2, ![4, 2048]⟩
abbrev S1024x2048 : Shape := ⟨2, ![1024, 2048]⟩
abbrev S1024x256 : Shape := ⟨2, ![1024, 256]⟩
abbrev S4x256x2048 : Shape := ⟨3, ![4, 256, 2048]⟩
abbrev S4x256 : Shape := ⟨2, ![4, 256]⟩
abbrev S1x256x2048 : Shape := ⟨3, ![1, 256, 2048]⟩
abbrev S256x2048 : Shape := ⟨2, ![256, 2048]⟩
abbrev S1x256 : Shape := ⟨2, ![1, 256]⟩
abbrev S256 : Shape := ⟨1, ![256]⟩

abbrev nBuf : Space → Nat
  | .hbm => 15
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S8192x2048, .bf16⟩
  | .hbm, ⟨7, _⟩ => ⟨S8192x2048, .bf16⟩
  | .hbm, ⟨8, _⟩ => ⟨S8192x2048, .bf16⟩
  | .hbm, ⟨9, _⟩ => ⟨S4x2048x2048, .bf16⟩
  | .hbm, ⟨10, _⟩ => ⟨S8192x2048, .bf16⟩
  | .hbm, ⟨11, _⟩ => ⟨S4x2048x2048, .bf16⟩
  | .hbm, ⟨12, _⟩ => ⟨S4x2048, .f32⟩
  | .hbm, ⟨13, _⟩ => ⟨S8192x2048, .f32⟩
  | .hbm, ⟨14, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x256, .f32⟩
  | .local _ .vmem, ⟨5, _⟩ => ⟨S1024x256, .f32⟩
  | .local _ .vmem, ⟨6, _⟩ => ⟨S4x256x2048, .bf16⟩
  | .local _ .vmem, ⟨7, _⟩ => ⟨S4x256x2048, .bf16⟩
  | .local _ .vmem, ⟨8, _⟩ => ⟨S4x256, .f32⟩
  | .local _ .vmem, ⟨9, _⟩ => ⟨S4x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S4x256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S4x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S8192x2048_S4x2048x2048 : S8192x2048.ShapeCasts S4x2048x2048
  shapeCasts_S8192_S4x2048 : S8192.ShapeCasts S4x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  slices_S4x256_o0_0_S1x256 : S4x256.Slices ![0, 0] S1x256
  shapeCasts_S1x256_S256 : S1x256.ShapeCasts S256
  shapeCasts_S256_S1x256 : S256.ShapeCasts S1x256
  broadcasts_S1x256_S1024x256 : S1x256.Broadcasts S1024x256
  inb_S4x256x2048_S1x256x2048_1_0_0 : ∀ a, (![1, 0, 0] : Fin 3 → Nat) a + S1x256x2048.size a ≤ S4x256x2048.size a
  slices_S4x256_o1_0_S1x256 : S4x256.Slices ![1, 0] S1x256
  inb_S4x256x2048_S1x256x2048_2_0_0 : ∀ a, (![2, 0, 0] : Fin 3 → Nat) a + S1x256x2048.size a ≤ S4x256x2048.size a
  slices_S4x256_o2_0_S1x256 : S4x256.Slices ![2, 0] S1x256
  inb_S4x256x2048_S1x256x2048_3_0_0 : ∀ a, (![3, 0, 0] : Fin 3 → Nat) a + S1x256x2048.size a ≤ S4x256x2048.size a
  slices_S4x256_o3_0_S1x256 : S4x256.Slices ![3, 0] S1x256
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x2048.size a
  hwx0_1 : ∀ i : grid0.Coords, EltTy.bits .bf16 = 32 ∨ (Rect.block (s := S8192x2048) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x2048.size a
  hwx0_2 : ∀ i : grid0.Coords, EltTy.bits .f32 = 32 ∨ (Rect.block (s := S8192x2048) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x256x2048.size a ≤ S4x2048x2048.size a
  hwx0_3 : ∀ i : grid0.Coords, EltTy.bits .bf16 = 32 ∨ (Rect.block (s := S4x2048x2048) S4x256x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256x2048.size a ≤ S4x2048x2048.size a
  hwx0_4 : ∀ i : grid0.Coords, EltTy.bits .bf16 = 32 ∨ (Rect.block (s := S4x2048x2048) S4x256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x2048.size a
  hwx0_5 : ∀ i : grid0.Coords, EltTy.bits .f32 = 32 ∨ (Rect.block (s := S4x2048) S4x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x2048.size a
  hwx0_6 : ∀ i : grid0.Coords, EltTy.bits .f32 = 32 ∨ (Rect.block (s := S8192x2048) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x2048.size a
  hwx0_7 : ∀ i : grid0.Coords, EltTy.bits .f32 = 32 ∨ (Rect.block (s := S8192x2048) S1024x256.size (cc0_transform_7 i) (hinb0_7 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S4x256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x256x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S2048x8192 : Shape := ⟨2, ![2048, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192, .f32⟩
  | .hbm, ⟨6, _⟩ => ⟨S2048x8192, .f32⟩
  | .hbm, ⟨7, _⟩ => ⟨S8192x8192, .f32⟩
  | .hbm, ⟨8, _⟩ => ⟨S2048x8192, .f32⟩
  | .hbm, ⟨9, _⟩ => ⟨S8192x8192, .f32⟩
  | .hbm, ⟨10, _⟩ => ⟨S8192x8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.Cell.lean ====
/-
  The LSTM cell with a capped input gate, as ONE function of the six argument arrays over the extended reals.

  For a batch row `b` and a stacked gate row `n` (the four gates' weight rows lie one after the other: gate `g`'s row
  `j` is row `g * 2048 + j` of each weight matrix and of the bias), the pre-activation is
      pre b n = (Σ_k x[b,k] · W_ih[n,k]  +  Σ_k h[b,k] · W_hh[n,k])  +  bias[n],
  the two contractions added first and the bias last. With  i = σ(pre of gate 0),  f = σ(pre of gate 1),
  g = tanh(pre of gate 2),  o = σ(pre of gate 3)  at column `j`, where σ z = 1 / (1 + e^(-z)),
      c'[b,j] = f · c[b,j] + min (1 - f) i · g            h'[b,j] = o · tanh c'[b,j].
  Both programs compute exactly these two arrays; nothing here needs the entries to be finite.
-/
import Idealize.ShloMosaic.PureOps.Ideal
import Idealize.ShloMosaic.Lib.ValueIdx

noncomputable section

namespace Cert.Lstm

open Idealize.ShloMosaic Idealize.ShloMosaic.ValueIdx
open scoped BigOperators

/-- An [8192, 2048] array of extended reals: the batch of inputs, of hidden states, of cell states, and each of the
    two stacked weight matrices (4 · 2048 rows of 2048). -/
abbrev Mat : Type := (⟨2, ![8192, 2048]⟩ : Shape).Idx → EReal
/-- The stacked bias, one entry per stacked gate row. -/
abbrev Row : Type := (⟨1, ![8192]⟩ : Shape).Idx → EReal

/-- The pre-activation of stacked gate row `n` on batch row `b`: the two contractions over the 2048 features, added,
    then the bias. -/
def pre (x h wih whh : Mat) (bias : Row) (b n : Fin 8192) : EReal :=
  (∑ k : Fin 2048, x (ix2 b k) * wih (ix2 n k) + ∑ k : Fin 2048, h (ix2 b k) * whh (ix2 n k)) + bias (ix1 n)

/-- Gate `g`'s row `j` among the stacked rows. -/
def gateRow (g : Fin 4) (j : Fin 2048) : Fin 8192 :=
  ⟨g.val * 2048 + j.val, by have := g.isLt; have := j.isLt; omega⟩

theorem gateRow_val (g : Fin 4) (j : Fin 2048) : (gateRow g j).val = g.val * 2048 + j.val := rfl

/-- The new cell state at `(b, j)`: the forget gate times the old state plus the input gate, capped by what the forget
    gate leaves, times the candidate. -/
def cellAt (x h c wih whh : Mat) (bias : Row) (b : Fin 8192) (j : Fin 2048) : EReal :=
  Ideal.logistic (pre x h wih whh bias b (gateRow 1 j)) * c (ix2 b j)
    + min (1 - Ideal.logistic (pre x h wih whh bias b (gateRow 1 j))) (Ideal.logistic (pre x h wih whh bias b (gateRow 0 j)))
        * Ideal.tanh (pre x h wih whh bias b (gateRow 2 j))

/-- The new hidden state at `(b, j)`: the output gate times the squashed new cell state. -/
def hiddenAt (x h c wih whh : Mat) (bias : Row) (b : Fin 8192) (j : Fin 2048) : EReal :=
  Ideal.logistic (pre x h wih whh bias b (gateRow 3 j)) * Ideal.tanh (cellAt x h c wih whh bias b j)

/-- The new cell states as an array. -/
def newCell (x h c wih whh : Mat) (bias : Row) : Mat := fun i => cellAt x h c wih whh bias (i 0) (i 1)

/-- The new hidden states as an array. -/
def newHidden (x h c wih whh : Mat) (bias : Row) : Mat := fun i => hiddenAt x h c wih whh bias (i 0) (i 1)

theorem newCell_ix2 (x h c wih whh : Mat) (bias : Row) (b : Fin 8192) (j : Fin 2048) :
    newCell x h c wih whh bias (ix2 b j) = cellAt x h c wih whh bias b j := rfl

theorem newHidden_ix2 (x h c wih whh : Mat) (bias : Row) (b : Fin 8192) (j : Fin 2048) :
    newHidden x h c wih whh bias (ix2 b j) = hiddenAt x h c wih whh bias b j := rfl

end Cert.Lstm

end
-- ==== Proof.RefCell.lean ====
/-
  The reference computes the cell of Cell.lean.

  Its two matrix products contract the features against the TRANSPOSED weights, so entry (b, n) of each is
  Σ_k x[b,k] · W[n,k]; it adds the two products, then the bias row spread over the batch, and cuts the [8192, 8192]
  result into four column bands of 2048: band g, column j, is stacked gate row g · 2048 + j. Its sigmoid is spelt
  1 / (1 + e^(-z)) with the float 1.0, which denotes the real one. The rest is the cell's formula entry by entry.
-/
import proofs.«119755_j78159814853182_2_alg».proof.Proof.Gen.ReferenceIdeal.Read
import proofs.«119755_j78159814853182_2_alg».proof.Proof.Cell
import Idealize.ShloMosaic.Lib.IdealHost

noncomputable section

namespace Cert.Lstm.Ref

open Idealize.ShloMosaic Idealize.ShloMosaic.ValueIdx
open Cert.ReferenceIdeal Cert.ReferenceIdeal.Read Cert.Lstm
open scoped BigOperators

variable (x0 x1 x2 x3 x4 : (⟨S8192x2048, .f32⟩ : BufTy).Contents (Elt Ideal)) (x5 : (⟨S8192, .f32⟩ : BufTy).Contents (Elt Ideal))

/-- Entry (b, n) of the summed products plus the bias row is the pre-activation of stacked gate row `n` on batch row `b`. -/
theorem gates_apply (b n : Fin 8192) :
    val_main_v7 (F := Ideal) x0 x1 x3 x4 x5 (ix2 b n) = pre x0 x1 x3 x4 x5 b n := by
  have el1 : ∀ k : Fin 2048, lidx_main_v1 (ix2 b n) k = ix2 b k := fun k => funext fun a => Fin.ext (by
    match a with
    | ⟨0, _⟩ => rfl
    | ⟨1, _⟩ => rfl)
  have er1 : ∀ k : Fin 2048, idx_main_v0 (ridx_main_v1 (ix2 b n) k) = ix2 n k := fun k => funext fun a => Fin.ext (by
    match a with
    | ⟨0, _⟩ => rfl
    | ⟨1, _⟩ => rfl)
  have el3 : ∀ k : Fin 2048, lidx_main_v3 (ix2 b n) k = ix2 b k := fun k => funext fun a => Fin.ext (by
    match a with
    | ⟨0, _⟩ => rfl
    | ⟨1, _⟩ => rfl)
  have er3 : ∀ k : Fin 2048, idx_main_v2 (ridx_main_v3 (ix2 b n) k) = ix2 n k := fun k => funext fun a => Fin.ext (by
    match a with
    | ⟨0, _⟩ => rfl
    | ⟨1, _⟩ => rfl)
  have eb : idx_main_v5 (idx_main_v6 (ix2 b n)) = ix1 n := funext fun a => Fin.ext (by
    match a with
    | ⟨0, _⟩ => rfl)
  rw [val_main_v7_apply, val_main_v4_apply, val_main_v1_apply, val_main_v3_apply, val_main_v6_apply, val_main_v5_apply]
  simp only [val_main_v0_apply, val_main_v2_apply, el1, er1, el3, er3, eb]
  rfl

/-- Column `j` of band `g` of the [8192, 8192] gate array is its column `g · 2048 + j`. -/
theorem band0 (b : Fin 8192) (j : Fin 2048) : idx_main_v8 (ix2 b j) = ix2 b (gateRow 0 j) := funext fun a => Fin.ext (by
  match a with
  | ⟨0, _⟩ => rfl
  | ⟨1, _⟩ => show j.val = 0 * 2048 + j.val; omega)
theorem band1 (b : Fin 8192) (j : Fin 2048) : idx_main_v9 (ix2 b j) = ix2 b (gateRow 1 j) := funext fun a => Fin.ext (by
  match a with
  | ⟨0, _⟩ => rfl
  | ⟨1, _⟩ => show 2048 + j.val = 1 * 2048 + j.val; omega)
theorem band2 (b : Fin 8192) (j : Fin 2048) : idx_main_v10 (ix2 b j) = ix2 b (gateRow 2 j) := funext fun a => Fin.ext (by
  match a with
  | ⟨0, _⟩ => rfl
  | ⟨1, _⟩ => show 4096 + j.val = 2 * 2048 + j.val; omega)
theorem band3 (b : Fin 8192) (j : Fin 2048) : idx_main_v11 (ix2 b j) = ix2 b (gateRow 3 j) := funext fun a => Fin.ext (by
  match a with
  | ⟨0, _⟩ => rfl
  | ⟨1, _⟩ => show 6144 + j.val = 3 * 2048 + j.val; omega)

/-- The reference's sigmoid, 1.0 / (1.0 + e^(-z)) on the host, is the logistic function: the float 1.0 denotes one. -/
theorem sigmoid_eq (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  simp only [Ideal.ofBits_def, Ideal.ofBits_one_f32, Ideal.hostDivf_def, Ideal.addf_def, Ideal.hostUnary_exp_def,
    Ideal.hostNegf_def, Ideal.negf_def]
  rfl

/-- The input gate at `(b, j)`. -/
theorem gate_i_apply (b : Fin 8192) (j : Fin 2048) :
    val_main_v17 (F := Ideal) x0 x1 x3 x4 x5 (ix2 b j) = Ideal.logistic (pre x0 x1 x3 x4 x5 b (gateRow 0 j)) := by
  rw [val_main_v17_apply, val_main_v16_apply, val_main_cst_0_apply, val_main_v15_apply, val_main_v14_apply,
    val_main_cst_apply, val_main_v13_apply, val_main_v12_apply, val_main_v8_apply, band0, gates_apply]
  exact sigmoid_eq _

/-- The forget gate at `(b, j)`. -/
theorem gate_f_apply (b : Fin 8192) (j : Fin 2048) :
    val_main_v23 (F := Ideal) x0 x1 x3 x4 x5 (ix2 b j) = Ideal.logistic (pre x0 x1 x3 x4 x5 b (gateRow 1 j)) := by
  rw [val_main_v23_apply, val_main_v22_apply, val_main_cst_2_apply, val_main_v21_apply, val_main_v20_apply,
    val_main_cst_1_apply, val_main_v19_apply, val_main_v18_apply, val_main_v9_apply, band1, gates_apply]
  exact sigmoid_eq _

/-- The output gate at `(b, j)`. -/
theorem gate_o_apply (b : Fin 8192) (j : Fin 2048) :
    val_main_v29 (F := Ideal) x0 x1 x3 x4 x5 (ix2 b j) = Ideal.logistic (pre x0 x1 x3 x4 x5 b (gateRow 3 j)) := by
  rw [val_main_v29_apply, val_main_v28_apply, val_main_cst_4_apply, val_main_v27_apply, val_main_v26_apply,
    val_main_cst_3_apply, val_main_v25_apply, val_main_v24_apply, val_main_v11_apply, band3, gates_apply]
  exact sigmoid_eq _

/-- The candidate at `(b, j)`. -/
theorem gate_g_apply (b : Fin 8192) (j : Fin 2048) :
    val_main_v30 (F := Ideal) x0 x1 x3 x4 x5 (ix2 b j) = Ideal.tanh (pre x0 x1 x3 x4 x5 b (gateRow 2 j)) := by
  rw [val_main_v30_apply, val_main_v10_apply, band2, gates_apply]
  rfl

/-- The reference's second result is the new cell state. -/
theorem cell_eq : val_main_v36 (F := Ideal) x0 x1 x2 x3 x4 x5 = newCell x0 x1 x2 x3 x4 x5 := by
  funext i
  obtain ⟨b, j, rfl⟩ : ∃ (b : Fin 8192) (j : Fin 2048), i = ix2 b j := ⟨i 0, i 1, eq_ix2 i⟩
  rw [newCell_ix2, val_main_v36_apply, val_main_v31_apply, val_main_v35_apply, val_main_v34_apply, val_main_v33_apply,
    val_main_v32_apply, val_main_cst_5_apply, gate_f_apply, gate_i_apply, gate_g_apply]
  simp only [Ideal.ofBits_def, Ideal.ofBits_one_f32, Ideal.addf_def, Ideal.mulf_def, Ideal.subf_def, Ideal.minimumf_def]
  rfl

/-- The reference's first result is the new hidden state. -/
theorem hidden_eq : val_main_v38 (F := Ideal) x0 x1 x2 x3 x4 x5 = newHidden x0 x1 x2 x3 x4 x5 := by
  funext i
  obtain ⟨b, j, rfl⟩ : ∃ (b : Fin 8192) (j : Fin 2048), i = ix2 b j := ⟨i 0, i 1, eq_ix2 i⟩
  rw [newHidden_ix2, val_main_v38_apply, val_main_v37_apply, gate_o_apply, cell_eq, newCell_ix2]
  rfl

end Cert.Lstm.Ref

end
-- ==== Proof.BlockGate.lean ====
/-
  The kernel body's arithmetic on one block, read entry by entry.

  At a grid point the body holds a [1024, 2048] block of inputs and of hidden states, a [1024, 256] block of cell
  states, and for each of the four gates a [256, 2048] slab of each weight matrix and a [256] piece of the bias (the
  slabs and pieces arrive stacked as [4, 256, 2048] and [4, 256]). A gate's pre-activation on the block is the sum of
  two products, each contracting the 2048 features of a block row against the 2048 features of a slab ROW (the slab is
  not transposed: entry (r, q) pairs block row r with slab row q), plus the gate's bias piece spread over the rows. The
  two stored payloads are then the cell formula applied entry by entry.
-/
import proofs.«119755_j78159814853182_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Lstm.Blk

open Idealize.ShloMosaic Idealize.ShloMosaic.ValueIdx
open Cert.KernelIdeal Cert.KernelIdeal.Gen
open scoped BigOperators

/-! ## The product of a block with a slab, rows against rows -/

theorem lhs_0 (i : S1024x256.Idx) (q : dot_S1024x2048_S256x2048_S1024x256_1_1_0_0_n_n.contr.Idx) :
    (dot_S1024x2048_S256x2048_S1024x256_1_1_0_0_n_n.lhsIdx i q 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl
theorem lhs_1 (i : S1024x256.Idx) (q : dot_S1024x2048_S256x2048_S1024x256_1_1_0_0_n_n.contr.Idx) :
    (dot_S1024x2048_S256x2048_S1024x256_1_1_0_0_n_n.lhsIdx i q 1).val = (q ⟨0, by decide⟩).val :=
  dot_S1024x2048_S256x2048_S1024x256_1_1_0_0_n_n.lhsIdx_val_of_single rfl i q
theorem rhs_0 (i : S1024x256.Idx) (q : dot_S1024x2048_S256x2048_S1024x256_1_1_0_0_n_n.contr.Idx) :
    (dot_S1024x2048_S256x2048_S1024x256_1_1_0_0_n_n.rhsIdx i q 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl
theorem rhs_1 (i : S1024x256.Idx) (q : dot_S1024x2048_S256x2048_S1024x256_1_1_0_0_n_n.contr.Idx) :
    (dot_S1024x2048_S256x2048_S1024x256_1_1_0_0_n_n.rhsIdx i q 1).val = (q ⟨0, by decide⟩).val :=
  dot_S1024x2048_S256x2048_S1024x256_1_1_0_0_n_n.rhsIdx_val_of_single rfl i q

/-- A [1024, 2048] block times a [256, 2048] slab, into zero: entry (r, q) is the sum over the features of block row r
    against slab row q. -/
theorem rows_dot_rows (X : FVec Ideal S1024x2048 .bf16) (W : FVec Ideal S256x2048 .bf16) (r : Fin 1024) (q : Fin 256) :
    matmul dot_S1024x2048_S256x2048_S1024x256_1_1_0_0_n_n none X W (constant (F := Ideal) S1024x256 .f32 0x00000000#32) (ix2 r q)
      = ∑ k : Fin 2048, X (ix2 r k) * W (ix2 q k) := by
  refine (Ideal.matmul_constant_zero_apply dot_S1024x2048_S256x2048_S1024x256_1_1_0_0_n_n none X W (ix2 r q)).trans ?_
  rw [← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 r q) ((contrEquiv1 dot_S1024x2048_S256x2048_S1024x256_1_1_0_0_n_n 2048 rfl rfl).symm k) = ix2 r k := funext fun a => Fin.ext (by
    match a with
    | ⟨0, _⟩ => exact lhs_0 _ _
    | ⟨1, _⟩ => exact (lhs_1 _ _).trans hk)
  have er : dot_S1024x2048_S256x2048_S1024x256_1_1_0_0_n_n.rhsIdx (ix2 r q) ((contrEquiv1 dot_S1024x2048_S256x2048_S1024x256_1_1_0_0_n_n 2048 rfl rfl).symm k) = ix2 q k := funext fun a => Fin.ext (by
    match a with
    | ⟨0, _⟩ => exact rhs_0 _ _
    | ⟨1, _⟩ => exact (rhs_1 _ _).trans hk)
  rw [el, er]

/-! ## One gate's pre-activation on the block -/

/-- The gate's pre-activation as the body spells it: the two products added, then the bias piece, taken as a one-row
    array, spread over the 1024 rows. -/
def gateVec (X H : FVec Ideal S1024x2048 .bf16) (W U : FVec Ideal S1x256x2048 .bf16) (brow : FVec Ideal S1x256 .f32) :
    FVec Ideal S1024x256 .f32 :=
  addf (addf (matmul dot_S1024x2048_S256x2048_S1024x256_1_1_0_0_n_n none X (shapeCast S256x2048 W shapeCasts_S1x256x2048_S256x2048) (constant (F := Ideal) S1024x256 .f32 0x00000000#32))
        (matmul dot_S1024x2048_S256x2048_S1024x256_1_1_0_0_n_n none H (shapeCast S256x2048 U shapeCasts_S1x256x2048_S256x2048) (constant (F := Ideal) S1024x256 .f32 0x00000000#32)))
    (broadcastTo S1024x256 (shapeCast S1x256 (shapeCast S256 brow shapeCasts_S1x256_S256) shapeCasts_S256_S1x256) broadcasts_S1x256_S1024x256)

/-- Entry (r, q) of it. -/
theorem gateVec_apply (X H : FVec Ideal S1024x2048 .bf16) (W U : FVec Ideal S1x256x2048 .bf16) (brow : FVec Ideal S1x256 .f32)
    (r : Fin 1024) (q : Fin 256) :
    gateVec X H W U brow (ix2 r q)
      = (∑ k : Fin 2048, X (ix2 r k) * W (ix3 (0 : Fin 1) q k) + ∑ k : Fin 2048, H (ix2 r k) * U (ix3 (0 : Fin 1) q k))
        + brow (ix2 (0 : Fin 1) q) := by
  unfold gateVec
  rw [addf_apply, addf_apply, rows_dot_rows, rows_dot_rows, broadcastTo_1b_ab_apply, shapeCast_a_1a_apply, shapeCast_1a_a_apply]
  simp only [shapeCast_1ab_ab_apply]

end Cert.Lstm.Blk

end
-- ==== Proof.BlockCell.lean ====
/-
  What the body leaves in its two output blocks, entry by entry, and why that is the cell of Cell.lean.

  Each gate reads its own [256, 2048] slab of the two stacked weight blocks and its own row of the stacked bias block.
  With the block's pre-activations written `blkPre g r q` (gate g, block row r, block column q), the stored cell block
  is  σ(pre 1) · c + min (1 - σ(pre 1)) (σ(pre 0)) · tanh(pre 2)  and the stored hidden block is  σ(pre 3) · tanh  of it.
  If the blocks are the pieces of the whole arrays that a placement of rows `ρ` and of columns `κ` names — the input and
  hidden blocks rows ρ of their arrays, the cell block rows ρ and columns κ, gate g's slab rows the stacked rows
  g · 2048 + κ q, likewise the bias —, a block pre-activation is the array's at (ρ r, g · 2048 + κ q), and so the two
  blocks are the new cell and hidden states at (ρ r, κ q).
-/
import proofs.«119755_j78159814853182_2_alg».proof.Proof.Gen.KernelIdeal.Frame
import proofs.«119755_j78159814853182_2_alg».proof.Proof.BlockGate
import proofs.«119755_j78159814853182_2_alg».proof.Proof.Cell
import Idealize.ShloMosaic.Lib.IdealHost

noncomputable section

namespace Cert.Lstm.Blk

open Idealize.ShloMosaic Idealize.ShloMosaic.ValueIdx
open Cert.KernelIdeal Cert.KernelIdeal.Gen Cert.Lstm
open scoped BigOperators

/-! ## Pieces of the stacked blocks -/

/-- Row 0 of the bias block cut from row `o` is row `o` of the block. -/
theorem bias_piece (B : FVec Ideal S4x256 .f32) (o : Nat) (h : S4x256.Slices ![o, 0] S1x256) (g : Fin 4) (hg : g.val = o)
    (q : Fin 256) : extractStridedSlice S1x256 ![o, 0] B h (ix2 (0 : Fin 1) q) = B (ix2 g q) :=
  slice2_axis0_apply o B h (0 : Fin 1) q g (hg.trans (Nat.add_zero o).symm)

/-- The slab loaded from row `o` of a stacked weight block is gate `o`'s. -/
theorem slab_apply (x : Vec Ideal S4x256x2048 .bf16) (o : Nat)
    (inb : ∀ a, (![o, 0, 0] : Fin 3 → Nat) a + S1x256x2048.size a ≤ S4x256x2048.size a) (g : Fin 4) (hg : g.val = o)
    (q : Fin 256) (k : Fin 2048) :
    View.ld (Val := Elt Ideal) (e' := .bf16) x (Rect.unit (s := S4x256x2048) ![o, 0, 0] S1x256x2048.size inb) (ix3 (0 : Fin 1) q k)
      = x (ix3 g q k) := by
  show x ((Rect.unit (s := S4x256x2048) ![o, 0, 0] S1x256x2048.size inb).idx (ix3 (0 : Fin 1) q k)) = _
  refine congrArg x (funext fun a => Fin.ext ?_)
  match a with
  | ⟨0, _⟩ => show o + 1 * 0 = g.val; omega
  | ⟨1, _⟩ => show 0 + 1 * q.val = q.val; omega
  | ⟨2, _⟩ => show 0 + 1 * k.val = k.val; omega

/-! ## The payloads at an entry -/

theorem pay3_eq (v0 : FVec Ideal S1024x2048 .bf16) : k0_pay3 (F := Ideal) v0 = v0 := shapeCast_self _ _
theorem pay4_eq (v2 : FVec Ideal S1024x2048 .bf16) : k0_pay4 (F := Ideal) v2 = v2 := shapeCast_self _ _
theorem pay5_eq (v5 : FVec Ideal S4x256 .f32) : k0_pay5 (F := Ideal) v5 = v5 := shapeCast_self _ _

/-- The input gate's block. -/
theorem pay_i_apply (v0 v2 : FVec Ideal S1024x2048 .bf16) (v5 : FVec Ideal S4x256 .f32) (v7 v9 : FVec Ideal S1x256x2048 .bf16)
    (r : Fin 1024) (q : Fin 256) :
    k0_pay6 (F := Ideal) v0 v2 v5 v7 v9 (ix2 r q)
      = Ideal.logistic ((∑ k : Fin 2048, v0 (ix2 r k) * v7 (ix3 (0 : Fin 1) q k) + ∑ k : Fin 2048, v2 (ix2 r k) * v9 (ix3 (0 : Fin 1) q k))
          + v5 (ix2 (0 : Fin 4) q)) := by
  have e : k0_pay6 (F := Ideal) v0 v2 v5 v7 v9
      = logistic (gateVec (k0_pay3 v0) (k0_pay4 v2) v7 v9 (extractStridedSlice S1x256 ![0, 0] (k0_pay5 v5) slices_S4x256_o0_0_S1x256)) := rfl
  rw [e, pay3_eq, pay4_eq, pay5_eq]
  show Ideal.logistic (gateVec v0 v2 v7 v9 _ (ix2 r q)) = _
  rw [gateVec_apply, bias_piece v5 0 slices_S4x256_o0_0_S1x256 (0 : Fin 4) rfl]

/-- The forget gate's block. -/
theorem pay_f_apply (v0 v2 : FVec Ideal S1024x2048 .bf16) (v5 : FVec Ideal S4x256 .f32) (v20 v22 : FVec Ideal S1x256x2048 .bf16)
    (r : Fin 1024) (q : Fin 256) :
    k0_pay7 (F := Ideal) v0 v2 v5 v20 v22 (ix2 r q)
      = Ideal.logistic ((∑ k : Fin 2048, v0 (ix2 r k) * v20 (ix3 (0 : Fin 1) q k) + ∑ k : Fin 2048, v2 (ix2 r k) * v22 (ix3 (0 : Fin 1) q k))
          + v5 (ix2 (1 : Fin 4) q)) := by
  have e : k0_pay7 (F := Ideal) v0 v2 v5 v20 v22
      = logistic (gateVec (k0_pay3 v0) (k0_pay4 v2) v20 v22 (extractStridedSlice S1x256 ![1, 0] (k0_pay5 v5) slices_S4x256_o1_0_S1x256)) := rfl
  rw [e, pay3_eq, pay4_eq, pay5_eq]
  show Ideal.logistic (gateVec v0 v2 v20 v22 _ (ix2 r q)) = _
  rw [gateVec_apply, bias_piece v5 1 slices_S4x256_o1_0_S1x256 (1 : Fin 4) rfl]

/-- The stored cell block, from the two gates already computed. -/
theorem pay_c_apply (v1 v3 : FVec Ideal S1024x2048 .bf16) (v4 : FVec Ideal S1024x256 .f32) (v6 : FVec Ideal S4x256 .f32)
    (v19 v32 : FVec Ideal S1024x256 .f32) (v33 v35 : FVec Ideal S1x256x2048 .bf16) (r : Fin 1024) (q : Fin 256) :
    k0_pay1 (F := Ideal) v1 v3 v4 v6 v19 v32 v33 v35 (ix2 r q)
      = v32 (ix2 r q) * v4 (ix2 r q) + min (1 - v32 (ix2 r q)) (v19 (ix2 r q))
          * Ideal.tanh ((∑ k : Fin 2048, v1 (ix2 r k) * v33 (ix3 (0 : Fin 1) q k) + ∑ k : Fin 2048, v3 (ix2 r k) * v35 (ix3 (0 : Fin 1) q k))
              + v6 (ix2 (2 : Fin 4) q)) := by
  have e : k0_pay1 (F := Ideal) v1 v3 v4 v6 v19 v32 v33 v35
      = addf (mulf v32 v4) (mulf (minimumf (subf (broadcast S1024x256 (Scalar.ofBits (F := Ideal) .f32 0x3F800000#32)) v32) v19)
          (tanh (gateVec v1 v3 v33 v35 (extractStridedSlice S1x256 ![2, 0] v6 slices_S4x256_o2_0_S1x256)))) := rfl
  rw [e, addf_apply, mulf_apply, mulf_apply, minimumf_apply, subf_apply, broadcast_apply]
  show _ + min (Ideal.ofBits .f32 0x3F800000#32 - _) _ * Ideal.tanh (gateVec v1 v3 v33 v35 _ (ix2 r q)) = _
  rw [gateVec_apply, bias_piece v6 2 slices_S4x256_o2_0_S1x256 (2 : Fin 4) rfl, Ideal.ofBits_one_f32]

/-- The stored hidden block, over the stored cell block. -/
theorem pay_h_apply (v1 v3 : FVec Ideal S1024x2048 .bf16) (v4 : FVec Ideal S1024x256 .f32) (v6 : FVec Ideal S4x256 .f32)
    (v19 v32 : FVec Ideal S1024x256 .f32) (v33 v35 v46 v48 : FVec Ideal S1x256x2048 .bf16) (r : Fin 1024) (q : Fin 256) :
    k0_pay2 (F := Ideal) v1 v3 v4 v6 v19 v32 v33 v35 v46 v48 (ix2 r q)
      = Ideal.logistic ((∑ k : Fin 2048, v1 (ix2 r k) * v46 (ix3 (0 : Fin 1) q k) + ∑ k : Fin 2048, v3 (ix2 r k) * v48 (ix3 (0 : Fin 1) q k))
          + v6 (ix2 (3 : Fin 4) q))
        * Ideal.tanh (k0_pay1 (F := Ideal) v1 v3 v4 v6 v19 v32 v33 v35 (ix2 r q)) := by
  have e : k0_pay2 (F := Ideal) v1 v3 v4 v6 v19 v32 v33 v35 v46 v48
      = mulf (logistic (gateVec v1 v3 v46 v48 (extractStridedSlice S1x256 ![3, 0] v6 slices_S4x256_o3_0_S1x256)))
          (tanh (k0_pay1 (F := Ideal) v1 v3 v4 v6 v19 v32 v33 v35)) := rfl
  rw [e, mulf_apply]
  show Ideal.logistic (gateVec v1 v3 v46 v48 _ (ix2 r q)) * Ideal.tanh _ = _
  rw [gateVec_apply, bias_piece v6 3 slices_S4x256_o3_0_S1x256 (3 : Fin 4) rfl]

/-! ## The two output blocks at an entry -/

theorem zero2 : (![0, 0] : Fin 2 → Nat) = fun _ => 0 := funext fun a => by fin_cases a <;> rfl

/-- Gate `g`'s pre-activation on the block at (r, q): block row r against row q of the gate's slabs, plus the gate's
    bias at q. -/
def blkPre (x0 x1 : Vec Ideal S1024x2048 .bf16) (x3 x4 : Vec Ideal S4x256x2048 .bf16) (x5 : Vec Ideal S4x256 .f32)
    (g : Fin 4) (r : Fin 1024) (q : Fin 256) : EReal :=
  (∑ k : Fin 2048, x0 (ix2 r k) * x3 (ix3 g q k) + ∑ k : Fin 2048, x1 (ix2 r k) * x4 (ix3 g q k)) + x5 (ix2 g q)

/-- The cell formula on the block. -/
def blkCell (x0 x1 : Vec Ideal S1024x2048 .bf16) (x2 : Vec Ideal S1024x256 .f32) (x3 x4 : Vec Ideal S4x256x2048 .bf16)
    (x5 : Vec Ideal S4x256 .f32) (r : Fin 1024) (q : Fin 256) : EReal :=
  Ideal.logistic (blkPre x0 x1 x3 x4 x5 1 r q) * x2 (ix2 r q)
    + min (1 - Ideal.logistic (blkPre x0 x1 x3 x4 x5 1 r q)) (Ideal.logistic (blkPre x0 x1 x3 x4 x5 0 r q))
        * Ideal.tanh (blkPre x0 x1 x3 x4 x5 2 r q)

/-- The stored cell block at (r, q). -/
theorem cellBlock_apply (x0 x1 : Vec Ideal S1024x2048 .bf16) (x2 : Vec Ideal S1024x256 .f32) (x3 x4 : Vec Ideal S4x256x2048 .bf16)
    (x5 : Vec Ideal S4x256 .f32) (r : Fin 1024) (q : Fin 256) :
    out0_7 (F := Ideal) x0 x1 x2 x3 x4 x5 (ix2 r q) = blkCell x0 x1 x2 x3 x4 x5 r q := by
  unfold out0_7
  rw [View.canon_unit_zero zero2]
  simp only [View.ld_unit_zero (S := S1024x2048) zero2, View.ld_unit_zero (S := S1024x256) zero2, View.ld_unit_zero (S := S4x256) zero2]
  rw [pay_c_apply, pay_i_apply, pay_f_apply, pay3_eq, pay4_eq, pay5_eq]
  simp only [slab_apply x3 0 inb_S4x256x2048_S1x256x2048_0_0_0 (0 : Fin 4) rfl, slab_apply x4 0 inb_S4x256x2048_S1x256x2048_0_0_0 (0 : Fin 4) rfl,
    slab_apply x3 1 inb_S4x256x2048_S1x256x2048_1_0_0 (1 : Fin 4) rfl, slab_apply x4 1 inb_S4x256x2048_S1x256x2048_1_0_0 (1 : Fin 4) rfl,
    slab_apply x3 2 inb_S4x256x2048_S1x256x2048_2_0_0 (2 : Fin 4) rfl, slab_apply x4 2 inb_S4x256x2048_S1x256x2048_2_0_0 (2 : Fin 4) rfl]
  rfl

/-- The stored hidden block at (r, q). -/
theorem hiddenBlock_apply (x0 x1 : Vec Ideal S1024x2048 .bf16) (x2 : Vec Ideal S1024x256 .f32) (x3 x4 : Vec Ideal S4x256x2048 .bf16)
    (x5 : Vec Ideal S4x256 .f32) (r : Fin 1024) (q : Fin 256) :
    out0_6 (F := Ideal) x0 x1 x2 x3 x4 x5 (ix2 r q)
      = Ideal.logistic (blkPre x0 x1 x3 x4 x5 3 r q) * Ideal.tanh (blkCell x0 x1 x2 x3 x4 x5 r q) := by
  unfold out0_6
  rw [View.canon_unit_zero zero2]
  simp only [View.ld_unit_zero (S := S1024x2048) zero2, View.ld_unit_zero (S := S1024x256) zero2, View.ld_unit_zero (S := S4x256) zero2]
  rw [pay_h_apply, pay_c_apply, pay_i_apply, pay_f_apply, pay3_eq, pay4_eq, pay5_eq]
  simp only [slab_apply x3 0 inb_S4x256x2048_S1x256x2048_0_0_0 (0 : Fin 4) rfl, slab_apply x4 0 inb_S4x256x2048_S1x256x2048_0_0_0 (0 : Fin 4) rfl,
    slab_apply x3 1 inb_S4x256x2048_S1x256x2048_1_0_0 (1 : Fin 4) rfl, slab_apply x4 1 inb_S4x256x2048_S1x256x2048_1_0_0 (1 : Fin 4) rfl,
    slab_apply x3 2 inb_S4x256x2048_S1x256x2048_2_0_0 (2 : Fin 4) rfl, slab_apply x4 2 inb_S4x256x2048_S1x256x2048_2_0_0 (2 : Fin 4) rfl,
    slab_apply x3 3 inb_S4x256x2048_S1x256x2048_3_0_0 (3 : Fin 4) rfl, slab_apply x4 3 inb_S4x256x2048_S1x256x2048_3_0_0 (3 : Fin 4) rfl]
  rfl

/-! ## Blocks that are pieces of the arrays -/

section Placed

variable (A0 A1 A2 A3 A4 : Mat) (A5 : Row)
variable (x0 x1 : Vec Ideal S1024x2048 .bf16) (x2 : Vec Ideal S1024x256 .f32) (x3 x4 : Vec Ideal S4x256x2048 .bf16)
  (x5 : Vec Ideal S4x256 .f32)
variable (ρ : Fin 1024 → Fin 8192) (κ : Fin 256 → Fin 2048)
variable (h0 : ∀ (r : Fin 1024) (k : Fin 2048), x0 (ix2 r k) = A0 (ix2 (ρ r) k))
  (h1 : ∀ (r : Fin 1024) (k : Fin 2048), x1 (ix2 r k) = A1 (ix2 (ρ r) k))
  (h2 : ∀ (r : Fin 1024) (q : Fin 256), x2 (ix2 r q) = A2 (ix2 (ρ r) (κ q)))
  (h3 : ∀ (g : Fin 4) (q : Fin 256) (k : Fin 2048), x3 (ix3 g q k) = A3 (ix2 (gateRow g (κ q)) k))
  (h4 : ∀ (g : Fin 4) (q : Fin 256) (k : Fin 2048), x4 (ix3 g q k) = A4 (ix2 (gateRow g (κ q)) k))
  (h5 : ∀ (g : Fin 4) (q : Fin 256), x5 (ix2 g q) = A5 (ix1 (gateRow g (κ q))))

include h0 h1 h3 h4 h5 in
/-- A block pre-activation is the arrays' pre-activation at the placed row and the gate's stacked row. -/
theorem blkPre_eq (g : Fin 4) (r : Fin 1024) (q : Fin 256) :
    blkPre x0 x1 x3 x4 x5 g r q = pre A0 A1 A3 A4 A5 (ρ r) (gateRow g (κ q)) := by
  unfold blkPre pre
  simp only [h0, h1, h3, h4, h5]

include h0 h1 h2 h3 h4 h5 in
/-- The cell formula on the block is the new cell state at the placed entry. -/
theorem blkCell_eq (r : Fin 1024) (q : Fin 256) :
    blkCell x0 x1 x2 x3 x4 x5 r q = cellAt A0 A1 A2 A3 A4 A5 (ρ r) (κ q) := by
  unfold blkCell cellAt
  rw [blkPre_eq A0 A1 A3 A4 A5 x0 x1 x3 x4 x5 ρ κ h0 h1 h3 h4 h5 1 r q, blkPre_eq A0 A1 A3 A4 A5 x0 x1 x3 x4 x5 ρ κ h0 h1 h3 h4 h5 0 r q,
    blkPre_eq A0 A1 A3 A4 A5 x0 x1 x3 x4 x5 ρ κ h0 h1 h3 h4 h5 2 r q, h2]

include h0 h1 h2 h3 h4 h5 in
/-- The stored cell block is the new cell state on the placed entries. -/
theorem cellBlock_eq (y : S1024x256.Idx) :
    out0_7 (F := Ideal) x0 x1 x2 x3 x4 x5 y = newCell A0 A1 A2 A3 A4 A5 (ix2 (ρ (y 0)) (κ (y 1))) := by
  obtain ⟨r, q, rfl⟩ : ∃ (r : Fin 1024) (q : Fin 256), y = ix2 r q := ⟨y 0, y 1, eq_ix2 y⟩
  show out0_7 (F := Ideal) x0 x1 x2 x3 x4 x5 (ix2 r q) = newCell A0 A1 A2 A3 A4 A5 (ix2 (ρ r) (κ q))
  rw [cellBlock_apply, newCell_ix2, blkCell_eq A0 A1 A2 A3 A4 A5 x0 x1 x2 x3 x4 x5 ρ κ h0 h1 h2 h3 h4 h5 r q]

include h0 h1 h2 h3 h4 h5 in
/-- The stored hidden block is the new hidden state on the placed entries. -/
theorem hiddenBlock_eq (y : S1024x256.Idx) :
    out0_6 (F := Ideal) x0 x1 x2 x3 x4 x5 y = newHidden A0 A1 A2 A3 A4 A5 (ix2 (ρ (y 0)) (κ (y 1))) := by
  obtain ⟨r, q, rfl⟩ : ∃ (r : Fin 1024) (q : Fin 256), y = ix2 r q := ⟨y 0, y 1, eq_ix2 y⟩
  show out0_6 (F := Ideal) x0 x1 x2 x3 x4 x5 (ix2 r q) = newHidden A0 A1 A2 A3 A4 A5 (ix2 (ρ r) (κ q))
  rw [hiddenBlock_apply, newHidden_ix2, blkCell_eq A0 A1 A2 A3 A4 A5 x0 x1 x2 x3 x4 x5 ρ κ h0 h1 h2 h3 h4 h5 r q,
    blkPre_eq A0 A1 A3 A4 A5 x0 x1 x3 x4 x5 ρ κ h0 h1 h3 h4 h5 3 r q]
  rfl

end Placed

end Cert.Lstm.Blk

end
-- ==== Proof.Entry.lean ====
/-
  The arrays as the kernel's region finds them.

  Before the call the host narrows the inputs, the hidden states and both weight matrices to a shorter float format —
  the identity on extended reals — and regroups each [8192, 2048] weight matrix as [4, 2048, 2048] and the [8192] bias
  as [4, 2048], in row-major order: gate g's row p of the regrouped weights is stacked row g · 2048 + p, and entry (g, p)
  of the regrouped bias is stacked entry g · 2048 + p. The cell states are passed as they are.
-/
import proofs.«119755_j78159814853182_2_alg».proof.Proof.Gen.KernelIdeal.Frame
import proofs.«119755_j78159814853182_2_alg».proof.Proof.Cell
import Idealize.ShloMosaic.Lib.StableHlo.Run
import Idealize.ShloMosaic.Lib.ValueIdx
import Idealize.ShloMosaic.Lib.Pipeline.Value

noncomputable section

namespace Cert.Lstm.Entry

open Idealize.ShloMosaic Idealize.ShloMosaic.TcCoe Idealize.ShloMosaic.ValueIdx Idealize.ShloMosaic.StableHlo Idealize.SL.Sem
open Cert.KernelIdeal Cert.KernelIdeal.Gen Cert.Lstm

variable (m : (ℓ : Loc nD τ sig) → Buf (Elt Ideal) ℓ) (c : Dev nD)

/-- The narrowed inputs hold the inputs' values. -/
theorem inputs_apply (i : S8192x2048.Idx) :
    (V m c main_v0 : S8192x2048.Idx → EReal) i = (m ((c : Thread nD τ).loc main_arg0) : S8192x2048.Idx → EReal) i := by
  have e : @Eq (S8192x2048.Idx → EReal) (V m c main_v0)
      (truncf (F := Ideal) .bf16 (m ((c : Thread nD τ).loc main_arg0) : FVec Ideal S8192x2048 .f32) bitsLt_bf16_f32) := by
    dsimp only [Gen.V, Gen.hostOps0]; after_results
  rw [e]; rfl

/-- The narrowed hidden states hold the hidden states' values. -/
theorem hidden_apply (i : S8192x2048.Idx) :
    (V m c main_v1 : S8192x2048.Idx → EReal) i = (m ((c : Thread nD τ).loc main_arg1) : S8192x2048.Idx → EReal) i := by
  have e : @Eq (S8192x2048.Idx → EReal) (V m c main_v1)
      (truncf (F := Ideal) .bf16 (m ((c : Thread nD τ).loc main_arg1) : FVec Ideal S8192x2048 .f32) bitsLt_bf16_f32) := by
    dsimp only [Gen.V, Gen.hostOps0]; after_results
  rw [e]; rfl

/-- Gate g's row p, feature k, of the regrouped input weights is the stacked row g · 2048 + p, feature k. -/
theorem wih_apply (g : Fin 4) (p : Fin 2048) (k : Fin 2048) :
    (V m c main_v3 : S4x2048x2048.Idx → EReal) (ix3 g p k)
      = (m ((c : Thread nD τ).loc main_arg3) : S8192x2048.Idx → EReal) (ix2 (gateRow g p) k) := by
  have e : @Eq (S4x2048x2048.Idx → EReal) (V m c main_v3)
      (shapeCast S4x2048x2048 (truncf (F := Ideal) .bf16 (m ((c : Thread nD τ).loc main_arg3) : FVec Ideal S8192x2048 .f32) bitsLt_bf16_f32)
          shapeCasts_S8192x2048_S4x2048x2048) := by
    dsimp only [Gen.V, Gen.hostOps0]; after_results; rfl
  rw [e]
  refine (shapeCast_apply _ shapeCasts_S8192x2048_S4x2048x2048 (ix3 g p k) (ix2 (gateRow g p) k) ?_).trans rfl
  rw [Shape.rowMajor_val_two, Shape.rowMajor_val_three]
  show (gateRow g p).val * 2048 + k.val = (g.val * 2048 + p.val) * 2048 + k.val
  rw [gateRow_val]

/-- The same for the regrouped hidden weights. -/
theorem whh_apply (g : Fin 4) (p : Fin 2048) (k : Fin 2048) :
    (V m c main_v5 : S4x2048x2048.Idx → EReal) (ix3 g p k)
      = (m ((c : Thread nD τ).loc main_arg4) : S8192x2048.Idx → EReal) (ix2 (gateRow g p) k) := by
  have e : @Eq (S4x2048x2048.Idx → EReal) (V m c main_v5)
      (shapeCast S4x2048x2048 (truncf (F := Ideal) .bf16 (m ((c : Thread nD τ).loc main_arg4) : FVec Ideal S8192x2048 .f32) bitsLt_bf16_f32)
          shapeCasts_S8192x2048_S4x2048x2048) := by
    dsimp only [Gen.V, Gen.hostOps0]; after_results; rfl
  rw [e]
  refine (shapeCast_apply _ shapeCasts_S8192x2048_S4x2048x2048 (ix3 g p k) (ix2 (gateRow g p) k) ?_).trans rfl
  rw [Shape.rowMajor_val_two, Shape.rowMajor_val_three]
  show (gateRow g p).val * 2048 + k.val = (g.val * 2048 + p.val) * 2048 + k.val
  rw [gateRow_val]

/-- Entry (g, p) of the regrouped bias is the stacked entry g · 2048 + p. -/
theorem bias_apply (g : Fin 4) (p : Fin 2048) :
    (V m c main_v6 : S4x2048.Idx → EReal) (ix2 g p)
      = (m ((c : Thread nD τ).loc main_arg5) : S8192.Idx → EReal) (ix1 (gateRow g p)) := by
  have e : @Eq (S4x2048.Idx → EReal) (V m c main_v6)
      (shapeCast S4x2048 (m ((c : Thread nD τ).loc main_arg5) : FVec Ideal S8192 .f32) shapeCasts_S8192_S4x2048) := by
    dsimp only [Gen.V, Gen.hostOps0]; after_results; rfl
  rw [e]
  refine shapeCast_apply _ shapeCasts_S8192_S4x2048 (ix2 g p) (ix1 (gateRow g p)) ?_
  rw [Shape.rowMajor_val_one, Shape.rowMajor_val_two]
  show (gateRow g p).val = g.val * 2048 + p.val
  rw [gateRow_val]

end Cert.Lstm.Entry

end
-- ==== Proof.Tiles.lean ====
/-
  From the blocks to the two result arrays.

  The grid is 8 × 8: the first coordinate picks a band of 256 columns, the second a band of 1024 batch rows. At a point
  the input and hidden blocks are that band of rows (all 2048 features), the cell block and both output blocks are
  that band of rows and that band of columns, and the stacked weight and bias blocks are, for each of the four gates,
  that band of the gate's rows. So every block is the piece of its array that one placement of rows and one placement
  of columns name, the body's two stores are the new cell and hidden states on the placed entries, and since the 64
  output blocks tile [8192, 2048], each result array ends as the whole new state.
-/
import proofs.«119755_j78159814853182_2_alg».proof.Proof.Gen.KernelIdeal.Value
import proofs.«119755_j78159814853182_2_alg».proof.Proof.BlockCell
import proofs.«119755_j78159814853182_2_alg».proof.Proof.Entry

noncomputable section

namespace Cert.Lstm.Tiles

open Idealize.ShloMosaic Idealize.ShloMosaic.TcCoe Idealize.ShloMosaic.ValueIdx Idealize.SL.Sem
open Idealize.ShloMosaic.Pipeline (Dat)
open Cert.KernelIdeal Cert.KernelIdeal.Gen Cert.Lstm

variable (m : (ℓ : Loc nD τ sig) → Buf (Elt Ideal) ℓ) (ρ : Dev nD → PrngReg)

/-! ## The index maps over the grid -/

/-- Both output windows move alike, one block per point, inside the 8 × 8 blocks of the result. -/
theorem idx_out : ∀ t : Fin cfg0.N, win0_6.index t (0 : Fin 2) = win0_7.index t (0 : Fin 2)
    ∧ win0_6.index t (1 : Fin 2) = win0_7.index t (1 : Fin 2)
    ∧ win0_7.index t (0 : Fin 2) ≤ 7 ∧ win0_7.index t (1 : Fin 2) ≤ 7 :=
  (by decide +kernel : ∀ t : Fin grid0.N, _)

/-- The row-band windows follow the output's rows and take every feature; the cell window follows the output. -/
theorem idx_rows : ∀ t : Fin cfg0.N, win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = win0_7.index t (1 : Fin 2) :=
  (by decide +kernel : ∀ t : Fin grid0.N, _)

/-- The stacked windows take all four gates and every feature, and follow the output's columns on the gate rows. -/
theorem idx_gates : ∀ t : Fin cfg0.N, win0_3.index t (0 : Fin 3) = 0 ∧ win0_3.index t (1 : Fin 3) = win0_7.index t (1 : Fin 2)
    ∧ win0_3.index t (2 : Fin 3) = 0
    ∧ win0_4.index t (0 : Fin 3) = 0 ∧ win0_4.index t (1 : Fin 3) = win0_7.index t (1 : Fin 2) ∧ win0_4.index t (2 : Fin 3) = 0
    ∧ win0_5.index t (0 : Fin 2) = 0 ∧ win0_5.index t (1 : Fin 2) = win0_7.index t (1 : Fin 2) :=
  (by decide +kernel : ∀ t : Fin grid0.N, _)

/-- Every one of the 8 × 8 output blocks is some point's. -/
theorem idx_onto : ∀ (q0 : Fin 8) (q1 : Fin 8), ∃ t : Fin cfg0.N, win0_7.index t = ![q0.val, q1.val] :=
  (by decide +kernel : ∀ (q0 : Fin 8) (q1 : Fin 8), ∃ t : Fin grid0.N, win0_7.index t = ![q0.val, q1.val])

/-- The batch row that block row `r` is at point `t`. -/
def rowOf (t : Fin cfg0.N) (r : Fin 1024) : Fin 8192 :=
  ⟨win0_7.index t (0 : Fin 2) * 1024 + r.val, by have := (idx_out t).2.2.1; have := r.isLt; omega⟩

/-- The column that block column `q` is at point `t`. -/
def colOf (t : Fin cfg0.N) (q : Fin 256) : Fin 2048 :=
  ⟨win0_7.index t (1 : Fin 2) * 256 + q.val, by have := (idx_out t).2.2.2; have := q.isLt; omega⟩

theorem rowOf_val (t : Fin cfg0.N) (r : Fin 1024) : (rowOf t r).val = win0_7.index t (0 : Fin 2) * 1024 + r.val := rfl
theorem colOf_val (t : Fin cfg0.N) (q : Fin 256) : (colOf t q).val = win0_7.index t (1 : Fin 2) * 256 + q.val := rfl

/-! ## Each block is a piece of its argument array -/

theorem blk_inputs (c : Dev nD) (t : Fin cfg0.N) (r : Fin 1024) (k : Fin 2048) :
    iblk m c 0 t (ix2 r k) = (m ((c : Thread nD τ).loc main_arg0) : S8192x2048.Idx → EReal) (ix2 (rowOf t r) k) := by
  obtain ⟨e0, e1, -⟩ := idx_rows t
  show V m c main_v0 (((cfg0.win 0).blk t).view.emb (ix2 r k)) = _
  rw [Entry.inputs_apply]
  refine congrArg _ (funext fun a => Fin.ext ?_)
  match a with
  | ⟨0, _⟩ => show win0_0.index t (0 : Fin 2) * 1024 + 1 * r.val = win0_7.index t (0 : Fin 2) * 1024 + r.val; omega
  | ⟨1, _⟩ => show win0_0.index t (1 : Fin 2) * 2048 + 1 * k.val = k.val; omega

theorem blk_hidden (c : Dev nD) (t : Fin cfg0.N) (r : Fin 1024) (k : Fin 2048) :
    iblk m c 1 t (ix2 r k) = (m ((c : Thread nD τ).loc main_arg1) : S8192x2048.Idx → EReal) (ix2 (rowOf t r) k) := by
  obtain ⟨-, -, e0, e1, -⟩ := idx_rows t
  show V m c main_v1 (((cfg0.win 1).blk t).view.emb (ix2 r k)) = _
  rw [Entry.hidden_apply]
  refine congrArg _ (funext fun a => Fin.ext ?_)
  match a with
  | ⟨0, _⟩ => show win0_1.index t (0 : Fin 2) * 1024 + 1 * r.val = win0_7.index t (0 : Fin 2) * 1024 + r.val; omega
  | ⟨1, _⟩ => show win0_1.index t (1 : Fin 2) * 2048 + 1 * k.val = k.val; omega

theorem blk_cell (c : Dev nD) (t : Fin cfg0.N) (r : Fin 1024) (q : Fin 256) :
    iblk m c 2 t (ix2 r q) = (m ((c : Thread nD τ).loc main_arg2) : S8192x2048.Idx → EReal) (ix2 (rowOf t r) (colOf t q)) := by
  obtain ⟨-, -, -, -, e0, e1⟩ := idx_rows t
  show V m c main_arg2 (((cfg0.win 2).blk t).view.emb (ix2 r q)) = _
  rw [V_main_arg2]
  refine congrArg _ (funext fun a => Fin.ext ?_)
  match a with
  | ⟨0, _⟩ => show win0_2.index t (0 : Fin 2) * 1024 + 1 * r.val = win0_7.index t (0 : Fin 2) * 1024 + r.val; omega
  | ⟨1, _⟩ => show win0_2.index t (1 : Fin 2) * 256 + 1 * q.val = win0_7.index t (1 : Fin 2) * 256 + q.val; omega

theorem blk_wih (c : Dev nD) (t : Fin cfg0.N) (g : Fin 4) (q : Fin 256) (k : Fin 2048) :
    iblk m c 3 t (ix3 g q k) = (m ((c : Thread nD τ).loc main_arg3) : S8192x2048.Idx → EReal) (ix2 (gateRow g (colOf t q)) k) := by
  obtain ⟨e0, e1, e2, -⟩ := idx_gates t
  show V m c main_v3 (((cfg0.win 3).blk t).view.emb (ix3 g q k)) = _
  rw [← Entry.wih_apply m c g (colOf t q) k]
  refine congrArg _ (funext fun a => Fin.ext ?_)
  match a with
  | ⟨0, _⟩ => show win0_3.index t (0 : Fin 3) * 4 + 1 * g.val = g.val; omega
  | ⟨1, _⟩ => show win0_3.index t (1 : Fin 3) * 256 + 1 * q.val = win0_7.index t (1 : Fin 2) * 256 + q.val; omega
  | ⟨2, _⟩ => show win0_3.index t (2 : Fin 3) * 2048 + 1 * k.val = k.val; omega

theorem blk_whh (c : Dev nD) (t : Fin cfg0.N) (g : Fin 4) (q : Fin 256) (k : Fin 2048) :
    iblk m c 4 t (ix3 g q k) = (m ((c : Thread nD τ).loc main_arg4) : S8192x2048.Idx → EReal) (ix2 (gateRow g (colOf t q)) k) := by
  obtain ⟨-, -, -, e0, e1, e2, -⟩ := idx_gates t
  show V m c main_v5 (((cfg0.win 4).blk t).view.emb (ix3 g q k)) = _
  rw [← Entry.whh_apply m c g (colOf t q) k]
  refine congrArg _ (funext fun a => Fin.ext ?_)
  match a with
  | ⟨0, _⟩ => show win0_4.index t (0 : Fin 3) * 4 + 1 * g.val = g.val; omega
  | ⟨1, _⟩ => show win0_4.index t (1 : Fin 3) * 256 + 1 * q.val = win0_7.index t (1 : Fin 2) * 256 + q.val; omega
  | ⟨2, _⟩ => show win0_4.index t (2 : Fin 3) * 2048 + 1 * k.val = k.val; omega

theorem blk_bias (c : Dev nD) (t : Fin cfg0.N) (g : Fin 4) (q : Fin 256) :
    iblk m c 5 t (ix2 g q) = (m ((c : Thread nD τ).loc main_arg5) : S8192.Idx → EReal) (ix1 (gateRow g (colOf t q))) := by
  obtain ⟨-, -, -, -, -, -, e0, e1⟩ := idx_gates t
  show V m c main_v6 (((cfg0.win 5).blk t).view.emb (ix2 g q)) = _
  rw [← Entry.bias_apply m c g (colOf t q)]
  refine congrArg _ (funext fun a => Fin.ext ?_)
  match a with
  | ⟨0, _⟩ => show win0_5.index t (0 : Fin 2) * 4 + 1 * g.val = g.val; omega
  | ⟨1, _⟩ => show win0_5.index t (1 : Fin 2) * 256 + 1 * q.val = win0_7.index t (1 : Fin 2) * 256 + q.val; omega

/-! ## What a point writes back -/

/-- Point `t` writes back block `t` of the new cell states. -/
theorem flushed_cell (c : Dev nD) (t : Fin cfg0.N) :
    (dats m 0 c).flushed 7 t = ((cfg0.win 7).blk t).view.read (Elt Ideal) (newCell (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal)) := by
  rw [Cert.KernelIdeal.Value.flushed7]
  funext y
  show out0_7 (F := Ideal) (iblk m c 0 t) (iblk m c 1 t) (iblk m c 2 t) (iblk m c 3 t) (iblk m c 4 t) (iblk m c 5 t) y = newCell (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal) (((cfg0.win 7).blk t).view.emb y)
  refine (Blk.cellBlock_eq (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal) (iblk m c 0 t) (iblk m c 1 t) (iblk m c 2 t) (iblk m c 3 t) (iblk m c 4 t) (iblk m c 5 t) (rowOf t) (colOf t)
    (blk_inputs m c t) (blk_hidden m c t) (blk_cell m c t) (blk_wih m c t) (blk_whh m c t) (blk_bias m c t) y).trans ?_
  refine congrArg _ (funext fun a => Fin.ext ?_)
  match a with
  | ⟨0, _⟩ => show win0_7.index t (0 : Fin 2) * 1024 + (y 0).val = win0_7.index t (0 : Fin 2) * 1024 + 1 * (y 0).val; omega
  | ⟨1, _⟩ => show win0_7.index t (1 : Fin 2) * 256 + (y 1).val = win0_7.index t (1 : Fin 2) * 256 + 1 * (y 1).val; omega

/-- Point `t` writes back block `t` of the new hidden states. -/
theorem flushed_hidden (c : Dev nD) (t : Fin cfg0.N) :
    (dats m 0 c).flushed 6 t = ((cfg0.win 6).blk t).view.read (Elt Ideal) (newHidden (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal)) := by
  obtain ⟨e0, e1, -⟩ := idx_out t
  rw [Cert.KernelIdeal.Value.flushed6]
  funext y
  show out0_6 (F := Ideal) (iblk m c 0 t) (iblk m c 1 t) (iblk m c 2 t) (iblk m c 3 t) (iblk m c 4 t) (iblk m c 5 t) y = newHidden (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal) (((cfg0.win 6).blk t).view.emb y)
  refine (Blk.hiddenBlock_eq (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal) (iblk m c 0 t) (iblk m c 1 t) (iblk m c 2 t) (iblk m c 3 t) (iblk m c 4 t) (iblk m c 5 t) (rowOf t) (colOf t)
    (blk_inputs m c t) (blk_hidden m c t) (blk_cell m c t) (blk_wih m c t) (blk_whh m c t) (blk_bias m c t) y).trans ?_
  refine congrArg _ (funext fun a => Fin.ext ?_)
  match a with
  | ⟨0, _⟩ => show win0_7.index t (0 : Fin 2) * 1024 + (y 0).val = win0_6.index t (0 : Fin 2) * 1024 + 1 * (y 0).val; omega
  | ⟨1, _⟩ => show win0_7.index t (1 : Fin 2) * 256 + (y 1).val = win0_6.index t (1 : Fin 2) * 256 + 1 * (y 1).val; omega

/-! ## The 64 output blocks tile the result -/

theorem mem_blk_cell (t : Fin cfg0.N) (i : S8192x2048.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v7_1).slice (win0_7.rect t)).set ↔ _
  rw [View.set_slice_whole, Rect.mem_set_unit]
  exact Iff.rfl

theorem mem_blk_hidden (t : Fin cfg0.N) (i : S8192x2048.Idx) :
    i ∈ ((cfg0.win 6).blk t).view.set ↔ ∀ a : Fin 2, win0_6.index t a * S1024x256.size a ≤ (i a).val
      ∧ (i a).val < win0_6.index t a * S1024x256.size a + S1024x256.size a := by
  show i ∈ ((View.whole main_v7_0).slice (win0_6.rect t)).set ↔ _
  rw [View.set_slice_whole, Rect.mem_set_unit]
  exact Iff.rfl

/-- Entry (b, j) of the cell result is in the block of the point whose output block is (b / 1024, j / 256). -/
theorem cover_cell (i : S8192x2048.Idx) :
    ∃ t : Fin cfg0.N, (cfg0.win 7).flush t = true ∧ i ∈ ((cfg0.win 7).blk t).view.set := by
  have hi0 : (i 0).val < 8192 := (i 0).isLt
  have hi1 : (i 1).val < 2048 := (i 1).isLt
  obtain ⟨t, ht⟩ := idx_onto ⟨(i 0).val / 1024, by omega⟩ ⟨(i 1).val / 256, by omega⟩
  have q0 : win0_7.index t (0 : Fin 2) = (i 0).val / 1024 := congrFun ht 0
  have q1 : win0_7.index t (1 : Fin 2) = (i 1).val / 256 := congrFun ht 1
  refine ⟨t, flush0_7 t, ?_⟩
  rw [mem_blk_cell]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

/-- The same for the hidden result, whose window moves with the cell's. -/
theorem cover_hidden (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ := idx_onto ⟨(i 0).val / 1024, by omega⟩ ⟨(i 1).val / 256, by omega⟩
  have q0 : win0_7.index t (0 : Fin 2) = (i 0).val / 1024 := congrFun ht 0
  have q1 : win0_7.index t (1 : Fin 2) = (i 1).val / 256 := congrFun ht 1
  obtain ⟨e0, e1, -⟩ := idx_out t
  refine ⟨t, flush0_6 t, ?_⟩
  rw [mem_blk_hidden]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 256 ≤ (i 1).val ∧ (i 1).val < win0_6.index t (1 : Fin 2) * 256 + 256; omega

/-! ## The result arrays, and the run -/

/-- After the run the second result array holds the new cell states. -/
theorem final_cell (c : Dev nD) : (dats m 0 c).arrAt 7 cfg0.N = newCell (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal) :=
  (dats m 0 c).arrAt_eq_of_cover 7 (newCell (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal)) (fun t _ => flushed_cell m c t) cover_cell

/-- After the run the first result array holds the new hidden states. -/
theorem final_hidden (c : Dev nD) : (dats m 0 c).arrAt 6 cfg0.N = newHidden (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal) :=
  (dats m 0 c).arrAt_eq_of_cover 6 (newHidden (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal)) (fun t _ => flushed_hidden m c t) cover_hidden

/-- Every weakly fair execution of the kernel's program ends with the two results at the new hidden and cell states of
    the argument arrays, and the arguments unchanged. -/
theorem run : θ_run defs (onTc (τ := τ) (main (F := Ideal))) ⟨m, fun _ => 0, ρ⟩ fun r => ∀ c : Dev nD,
      r.2.mem ((c : Thread nD τ).loc main_v7_0) = newHidden (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal)
      ∧ r.2.mem ((c : Thread nD τ).loc main_v7_1) = newCell (m ((c : Thread nD τ).loc main_arg0) : S8192x2048.Idx → EReal) (m ((c : Thread nD τ).loc main_arg1) : S8192x2048.Idx → EReal) (m ((c : Thread nD τ).loc main_arg2) : S8192x2048.Idx → EReal) (m ((c : Thread nD τ).loc main_arg3) : S8192x2048.Idx → EReal) (m ((c : Thread nD τ).loc main_arg4) : S8192x2048.Idx → EReal) (m ((c : Thread nD τ).loc main_arg5) : S8192.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_hidden m c), (h c).2.1.trans (final_cell m c), (h c).2.2⟩)
    (Cert.KernelIdeal.Value.run_blocks m ρ)

end Cert.Lstm.Tiles

end
-- ==== Proof.lean ====
/-
  An LSTM cell with a capped input gate: the tiled kernel against the plain reference, over the extended reals.

  Both programs compute, for batch row b and column j, with pre-activations
      pre b n = (Σ_k x[b,k] · W_ih[n,k] + Σ_k h[b,k] · W_hh[n,k]) + bias[n]      (n a stacked gate row, g · 2048 + j),
      i = σ(pre of gate 0),  f = σ(pre of gate 1),  g = tanh(pre of gate 2),  o = σ(pre of gate 3),
      c'[b,j] = f · c[b,j] + min (1 - f) i · g,        h'[b,j] = o · tanh c'[b,j],
  and return (h', c') (Proof/Cell.lean states these two arrays as functions of the six arguments).

  The reference forms the whole [8192, 8192] gate array with two matrix products against the transposed weights, adds
  the bias row, cuts it into four column bands and applies the activations, its sigmoid spelt 1 / (1 + e^(-z))
  (Proof/RefCell.lean). The kernel walks an 8 × 8 grid of [1024, 256] output blocks; at a point it contracts a band of
  batch rows against the four gates' [256, 2048] weight slabs — rows against rows, the same sum over the features, in the
  same grouping — and applies the same formula with the one-operation logistic, which is 1 / (1 + e^(-z)) by definition
  (Proof/BlockGate.lean, Proof/BlockCell.lean). The host's narrowing of the matrix operands to a shorter float format is
  the identity on extended reals and its regrouping of the weights and bias is row-major (Proof/Entry.lean); every block
  is the piece of its array that the point's rows and columns name, and the 64 output blocks tile the results
  (Proof/Tiles.lean). No law of arithmetic beyond the definitions is used, so the finiteness of the inputs is not needed.
  The kernel's idealization rewrote no operation, so there is nothing to preserve.
-/
import proofs.«119755_j78159814853182_2_alg».proof.Defs
import proofs.«119755_j78159814853182_2_alg».proof.Proof.Gen.Kernel
import proofs.«119755_j78159814853182_2_alg».proof.Proof.Gen.Kernel.Skeleton
import proofs.«119755_j78159814853182_2_alg».proof.Proof.Gen.Kernel.Launch
import proofs.«119755_j78159814853182_2_alg».proof.Proof.Gen.Kernel.Points
import proofs.«119755_j78159814853182_2_alg».proof.Proof.Gen.Kernel.Frame
import proofs.«119755_j78159814853182_2_alg».proof.Proof.Gen.KernelIdeal
import proofs.«119755_j78159814853182_2_alg».proof.Proof.Gen.KernelIdeal.Skeleton
import proofs.«119755_j78159814853182_2_alg».proof.Proof.Gen.KernelIdeal.Launch
import proofs.«119755_j78159814853182_2_alg».proof.Proof.Gen.KernelIdeal.Points
import proofs.«119755_j78159814853182_2_alg».proof.Proof.Gen.KernelIdeal.Frame
import proofs.«119755_j78159814853182_2_alg».proof.Proof.Gen.ReferenceIdeal
import proofs.«119755_j78159814853182_2_alg».proof.Proof.Gen.Pre_finite_inputs
import proofs.«119755_j78159814853182_2_alg».proof.Proof.Gen.KernelIdeal.Value
import proofs.«119755_j78159814853182_2_alg».proof.Proof.Gen.ReferenceIdeal.Run
import proofs.«119755_j78159814853182_2_alg».proof.Proof.Gen.ReferenceIdeal.Read
import proofs.«119755_j78159814853182_2_alg».proof.Proof.RefCell
import proofs.«119755_j78159814853182_2_alg».proof.Proof.Tiles
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From arguments that agree, the kernel's two result arrays and the reference's are the new hidden states and the new
    cell states of those arguments. -/
theorem algebraic : Cert.algebraic_KernelIdeal_ReferenceIdeal := by
  intro m ρ m' ρ' _ hagree
  refine ⟨_, _, Cert.Lstm.Tiles.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v38_eq, Cert.Lstm.Ref.hidden_eq, (hagree c).1, (hagree c).2.1, (hagree c).2.2.1,
      (hagree c).2.2.2.1, (hagree c).2.2.2.2.1, (hagree c).2.2.2.2.2]
  · rw [(h c).2.1, Cert.ReferenceIdeal.Read.val_main_v36_eq, Cert.Lstm.Ref.cell_eq, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
